-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1280 : Shape := ⟨3, ![8, 4096, 1280]⟩
abbrev S8x6656 : Shape := ⟨2, ![8, 6656]⟩
abbrev S64x1280 : Shape := ⟨2, ![64, 1280]⟩
abbrev S64 : Shape := ⟨1, ![64]⟩
abbrev S1280x64 : Shape := ⟨2, ![1280, 64]⟩
abbrev S1280 : Shape := ⟨1, ![1280]⟩
abbrev S_ : Shape := ⟨0, ![]⟩

class Facts : Prop where
  bcast_S_S8x4096x1280 : S_.BroadcastsInDim S8x4096x1280 (![] : Fin 0 → Fin S8x4096x1280.rank)
  reducesTo_S8x4096x1280_S_d0_1_2 : S8x4096x1280.ReducesTo [0, 1, 2] S_
  h_S_ : 0 < S_.numel
  bcast_S_S8x6656 : S_.BroadcastsInDim S8x6656 (![] : Fin 0 → Fin S8x6656.rank)
  reducesTo_S8x6656_S_d0_1 : S8x6656.ReducesTo [0, 1] S_
  bcast_S_S64x1280 : S_.BroadcastsInDim S64x1280 (![] : Fin 0 → Fin S64x1280.rank)
  reducesTo_S64x1280_S_d0_1 : S64x1280.ReducesTo [0, 1] S_
  bcast_S_S64 : S_.BroadcastsInDim S64 (![] : Fin 0 → Fin S64.rank)
  reducesTo_S64_S_d0 : S64.ReducesTo [0] S_
  bcast_S_S1280x64 : S_.BroadcastsInDim S1280x64 (![] : Fin 0 → Fin S1280x64.rank)
  reducesTo_S1280x64_S_d0_1 : S1280x64.ReducesTo [0, 1] S_
  bcast_S_S1280 : S_.BroadcastsInDim S1280 (![] : Fin 0 → Fin S1280.rank)
  reducesTo_S1280_S_d0 : S1280.ReducesTo [0] S_

variable [Facts]

def fn_part1 {F : FTy → Type} [FloatOps F] (main_arg4 : FVec F S1280x64 .f32) (main_arg5 : FVec F S1280 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S1280x64 .f32 := Host.absf main_arg4
  let main_cst_6 : FVec F S_ .f32 := constant S_ .f32 0x7F800000#32
  let main_v20 : FVec F S1280x64 .f32 := broadcastInDim S1280x64 ![] bcast_S_S1280x64 main_cst_6
  let main_v21 : IVec S1280x64 1 := cmpf .olt main_v19 main_v20
  let main_c_7 : IVec S_ 1 := constantI S_ 1 1#1
  let main_v22 : IVec S_ 1 := (fun x v => Host.reduce IntOp.andi x v reducesTo_S1280x64_S_d0_1 h_S_) main_v21 main_c_7
  let main_v23 : IVec S_ 1 := andi main_v18 main_v22
  let main_v24 : FVec F S1280 .f32 := Host.absf main_arg5
  let main_cst_8 : FVec F S_ .f32 := constant S_ .f32 0x7F800000#32
  let main_v25 : FVec F S1280 .f32 := broadcastInDim S1280 ![] bcast_S_S1280 main_cst_8
  let main_v26 : IVec S1280 1 := cmpf .olt main_v24 main_v25
  let main_c_9 : IVec S_ 1 := constantI S_ 1 1#1
  let main_v27 : IVec S_ 1 := (fun x v => Host.reduce IntOp.andi x v reducesTo_S1280_S_d0 h_S_) main_v26 main_c_9
  let main_v28 : IVec S_ 1 := andi main_v23 main_v27
  main_v28

def fn {F : FTy → Type} [FloatOps F] (main_arg0 : FVec F S8x4096x1280 .f32) (main_arg1 : FVec F S8x6656 .f32) (main_arg2 : FVec F S64x1280 .f32) (main_arg3 : FVec F S64 .f32) (main_arg4 : FVec F S1280x64 .f32) (main_arg5 : FVec F S1280 .f32) : IVec S_ 1 :=
  let main_v0 : FVec F S8x4096x1280 .f32 := Host.absf main_arg0
  let main_cst : FVec F S_ .f32 := constant S_ .f32 0x7F800000#32
  let main_v1 : FVec F S8x4096x1280 .f32 := broadcastInDim S8x4096x1280 ![] bcast_S_S8x4096x1280 main_cst
  let main_v2 : IVec S8x4096x1280 1 := cmpf .olt main_v0 main_v1
  let main_c : IVec S_ 1 := constantI S_ 1 1#1
  let main_v3 : IVec S_ 1 := (fun x v => Host.reduce IntOp.andi x v reducesTo_S8x4096x1280_S_d0_1_2 h_S_) main_v2 main_c
  let main_v4 : FVec F S8x6656 .f32 := Host.absf main_arg1
  let main_cst_0 : FVec F S_ .f32 := constant S_ .f32 0x7F800000#32
  let main_v5 : FVec F S8x6656 .f32 := broadcastInDim S8x6656 ![] bcast_S_S8x6656 main_cst_0
  let main_v6 : IVec S8x6656 1 := cmpf .olt main_v4 main_v5
  let main_c_1 : IVec S_ 1 := constantI S_ 1 1#1
  let main_v7 : IVec S_ 1 := (fun x v => Host.reduce IntOp.andi x v reducesTo_S8x6656_S_d0_1 h_S_) main_v6 main_c_1
  let main_v8 : IVec S_ 1 := andi main_v3 main_v7
  let main_v9 : FVec F S64x1280 .f32 := Host.absf main_arg2
  let main_cst_2 : FVec F S_ .f32 := constant S_ .f32 0x7F800000#32
  let main_v10 : FVec F S64x1280 .f32 := broadcastInDim S64x1280 ![] bcast_S_S64x1280 main_cst_2
  let main_v11 : IVec S64x1280 1 := cmpf .olt main_v9 main_v10
  let main_c_3 : IVec S_ 1 := constantI S_ 1 1#1
  let main_v12 : IVec S_ 1 := (fun x v => Host.reduce IntOp.andi x v reducesTo_S64x1280_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S8x4096x1280 : Shape := ⟨3, ![8, 4096, 1280]⟩
abbrev S8x6656 : Shape := ⟨2, ![8, 6656]⟩
abbrev S64x1280 : Shape := ⟨2, ![64, 1280]⟩
abbrev S64 : Shape := ⟨1, ![64]⟩
abbrev S1280x64 : Shape := ⟨2, ![1280, 64]⟩
abbrev S1280 : Shape := ⟨1, ![1280]⟩
abbrev S8x1280 : Shape := ⟨2, ![8, 1280]⟩
abbrev S8x1x1280 : Shape := ⟨3, ![8, 1, 1280]⟩
abbrev S8x4096 : Shape := ⟨2, ![8, 4096]⟩
abbrev S8x64x64 : Shape := ⟨3, ![8, 64, 64]⟩
abbrev S1x1024x1280 : Shape := ⟨3, ![1, 1024, 1280]⟩
abbrev S1x1x1280 : Shape := ⟨3, ![1, 1, 1280]⟩
abbrev S1x64x64 : Shape := ⟨3, ![1, 64, 64]⟩
abbrev S1024x1280 : Shape := ⟨2, ![1024, 1280]⟩
abbrev S1x1280 : Shape := ⟨2, ![1, 1280]⟩
abbrev S1024x64 : Shape := ⟨2, ![1024, 64]⟩
abbrev S1x64 : Shape := ⟨2, ![1, 64]⟩
abbrev S64x64 : Shape := ⟨2, ![64, 64]⟩

abbrev nBuf : Space → Nat
  | .hbm => 13
  | .vmem => 14
  | .smem => 0
  | _ => 0

abbrev bufTy : (tb : Table) → Fin (tcTables nBuf tb) → BufTy
  | .hbm, ⟨0, _⟩ => ⟨S8x4096x1280, .f32⟩
  | .hbm, ⟨1, _⟩ => ⟨S8x6656, .f32⟩
  | .hbm, ⟨2, _⟩ => ⟨S64x1280, .f32⟩
  | .hbm, ⟨3, _⟩ => ⟨S64, .f32⟩
  | .hbm, ⟨4, _⟩ => ⟨S1280x64, .f32⟩
  | .hbm, ⟨5, _⟩ => ⟨S1280, .f32⟩
  | .hbm, ⟨6, _⟩ => ⟨S8x1280, .f32⟩
  | .hbm, ⟨7, _⟩ => ⟨S8x1x1280, .f32⟩
  | .hbm, ⟨8, _⟩ => ⟨S8x4096, .f32⟩
  | .hbm, ⟨9, _⟩ => ⟨S8x64x64, .f32⟩
  | .hbm, ⟨10, _⟩ => ⟨S8x1280, .f32⟩
  | .hbm, ⟨11, _⟩ => ⟨S8x1x1280, .f32⟩
  | .hbm, ⟨12, _⟩ => ⟨S8x4096x1280, .f32⟩
  | .local _ .vmem, ⟨0, _⟩ => ⟨S1x1024x1280, .f32⟩
  | .local _ .vmem, ⟨1, _⟩ => ⟨S1x1024x1280, .f32⟩
  | .local _ .vmem, ⟨2, _⟩ => ⟨S1x1x1280, .f32⟩
  | .local _ .vmem, ⟨3, _⟩ => ⟨S1x1x1280, .f32⟩
  | .local _ .vmem, ⟨4, _⟩ => ⟨S1x64x64, .f32⟩
  | .local _ .vmem, ⟨5, _⟩ => ⟨S1x64x64, .f32⟩
  | .local _ .vmem, ⟨6, _⟩ => ⟨S1x1x1280, .f32⟩
  | .local _ .vmem, ⟨7, _⟩ => ⟨S1x1x1280, .f32⟩
  | .local _ .vmem, ⟨8, _⟩ => ⟨S64x1280, .f32⟩
  | .local _ .vmem, ⟨9, _⟩ => ⟨S64, .f32⟩
  | .local _ .vmem, ⟨10, _⟩ => ⟨S1280x64, .f32⟩
  | .local _ .vmem, ⟨11, _⟩ => ⟨S1280, .f32⟩
  | .local _ .vmem, ⟨12, _⟩ => ⟨S1x1024x1280, .f32⟩
  | .local _ .vmem, ⟨13, _⟩ => ⟨S1x1024x1280, .f32⟩
  | _, _ => ⟨S8x4096x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S64x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1280x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1280 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  slices_S8x6656_S8x1280_0_0 : S8x6656.Slices ![0, 0] S8x1280
  shapeCasts_S8x1280_S8x1x1280 : S8x1280.ShapeCasts S8x1x1280
  slices_S8x6656_S8x4096_0_1280 : S8x6656.Slices ![0, 1280] S8x4096
  shapeCasts_S8x4096_S8x64x64 : S8x4096.ShapeCasts S8x64x64
  slices_S8x6656_S8x1280_0_5376 : S8x6656.Slices ![0, 5376] S8x1280
  inb_S1x1024x1280_S1x1024x1280_0_0_0 : ∀ a, (![0, 0, 0] : Fin 3 → Nat) a + S1x1024x1280.size a ≤ S1x1024x1280.size a
  h_S1x1024x1280 : 0 < S1x1024x1280.numel
  shapeCasts_S1x1024x1280_S1024x1280 : S1x1024x1280.ShapeCasts S1024x1280
  inb_S1x1x1280_S1x1x1280_0_0_0 : ∀ a, (![0, 0, 0] : Fin 3 → Nat) a + S1x1x1280.size a ≤ S1x1x1280.size a
  h_S1x1x1280 : 0 < S1x1x1280.numel
  shapeCasts_S1x1x1280_S1x1280 : S1x1x1280.ShapeCasts S1x1280
  broadcasts_S1x1280_S1024x1280 : S1x1280.Broadcasts S1024x1280
  bitsLt_bf16_f32 : FTy.bits .bf16 < FTy.bits .f32
  inb_S64x1280_S64x1280_0_0 : ∀ a, (![0, 0] : Fin 2 → Nat) a + S64x1280.size a ≤ S64x1280.size a
  h_S64x1280 : 0 < S64x1280.numel
  transposes_S64x1280_p1_0_S1280x64 : S64x1280.Transposes [1, 0] S1280x64
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  transposes_S64x64_p1_0_S64x64 : S64x64.Transposes [1, 0] S64x64
  inb_S1280x64_S1280x64_0_0 : ∀ a, (![0, 0] : Fin 2 → Nat) a + S1280x64.size a ≤ S1280x64.size a
  h_S1280x64 : 0 < S1280x64.numel
  transposes_S1280x64_p1_0_S64x1280 : S1280x64.Transposes [1, 0] S64x1280
  inb_S1280_S1280_0 : ∀ a, (![0] : Fin 1 → Nat) a + S1280.size a ≤ S1280.size a
  h_S1280 : 0 < S1280.numel
  shapeCasts_S1280_S1x1280 : S1280.ShapeCasts S1x1280
  shapeCasts_S1024x1280_S1x1024x1280 : S1024x1280.ShapeCasts S1x1024x1280
  dot_S1024x1280_S1280x64_S1024x64_1_0_0_1_n_n_wf : DotDims.WF S1024x1280 S1280x64 S1024x64 [1] [0] [0] [1] [] []
  dot_S1024x64_S64x64_S1024x64_1_0_0_1_n_n_wf : DotDims.WF S1024x64 S64x64 S1024x64 [1] [0] [0] [1] [] []
  dot_S1024x64_S64x1280_S1024x1280_1_0_0_1_n_n_wf : DotDims.WF S1024x64 S64x1280 S1024x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1280.size a ≤ S8x4096x1280.size a
  hwx0_0 : ∀ i : grid0.Coords, EltTy.bits .f32 = 32 ∨ (Rect.block (s := S8x4096x1280) S1x1024x1280.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1280.size a ≤ S8x1x1280.size a
  hwx0_1 : ∀ i : grid0.Coords, EltTy.bits .f32 = 32 ∨ (Rect.block (s := S8x1x1280) S1x1x1280.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64.size a ≤ S8x64x64.size a
  hwx0_2 : ∀ i : grid0.Coords, EltTy.bits .f32 = 32 ∨ (Rect.block (s := S8x64x64) S1x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1280.size a ≤ S8x1x1280.size a
  hwx0_3 : ∀ i : grid0.Coords, EltTy.bits .f32 = 32 ∨ (Rect.block (s := S8x1x1280) S1x1x1280.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1280.size a ≤ S64x1280.size a
  hwx0_4 : ∀ i : grid0.Coords, EltTy.bits .f32 = 32 ∨ (Rect.block (s := S64x1280) S64x1280.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1280x64.size a ≤ S1280x64.size a
  hwx0_6 : ∀ i : grid0.Coords, EltTy.bits .f32 = 32 ∨ (Rect.block (s := S1280x64) S1280x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1280.size a ≤ S1280.size a
  hwx0_7 : ∀ i : grid0.Coords, EltTy.bits .f32 = 32 ∨ (Rect.block (s := S1280) S1280.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x1280.size a ≤ S8x4096x1280.size a
  hwx0_8 : ∀ i : grid0.Coords, EltTy.bits .f32 = 32 ∨ (Rect.block (s := S8x4096x1280) S1x1024x1280.size (cc0_transform_8 i) (hinb0_8 i)).WholeWords (EltTy.packing .f32)

variable [Facts₀]

def dot_S1024x1280_S1280x64_S1024x64_1_0_0_1_n_n : DotDims S1024x1280 S1280x64 S1024x64 where
  lhsContracting := [1]
  rhsContracting := [0]
  lhsNonContracting := [0]
  rhsNonContracting := [1]
  lhsBatch := []
  rhsBatch := []
  wf := dot_S1024x1280_S1280x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x1280_S1024x1280_1_0_0_1_n_n : DotDims S1024x64 S64x1280 S1024x1280 where
  lhsContracting := [1]
  rhsContracting := [0]
  lhsNonContracting := [0]
  rhsNonContracting := [1]
  lhsBatch := []
  rhsBatch := []
  wf := dot_S1024x64_S64x1280_S1024x1280_1_0_0_1_n_n_wf

abbrev win0_0 : Pipeline.Window sig grid0 :=
  Pipeline.Window.ofSpec (Memref.whole main_arg0) S1x1024x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x64x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1x1280.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S64x1280.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S1280x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S1280.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x1024x1280.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x4096x1280 : Shape := ⟨3, ![8, 4096, 1280]⟩
abbrev S8x6656 : Shape := ⟨2, ![8, 6656]⟩
abbrev S64x1280 : Shape := ⟨2, ![64, 1280]⟩
abbrev S64 : Shape := ⟨1, ![64]⟩
abbrev S1280x64 : Shape := ⟨2, ![1280, 64]⟩
abbrev S1280 : Shape := ⟨1, ![1280]⟩
abbrev S8x1280 : Shape := ⟨2, ![8, 1280]⟩
abbrev S8x1x1280 : Shape := ⟨3, ![8, 1, 1280]⟩
abbrev S8x4096x64 : Shape := ⟨3, ![8, 4096, 64]⟩
abbrev S1x1x64 : Shape := ⟨3, ![1, 1, 64]⟩
abbrev S8x4096 : Shape := ⟨2, ![8, 4096]⟩
abbrev S8x64x64 : Shape := ⟨3, ![8, 64, 64]⟩
abbrev S1x1x1280 : Shape := ⟨3, ![1, 1, 1280]⟩

abbrev nBuf : Space → Nat
  | .hbm => 25
  | .vmem => 0
  | .smem => 0
  | _ => 0

abbrev bufTy : (tb : Table) → Fin (tcTables nBuf tb) → BufTy
  | .hbm, ⟨0, _⟩ => ⟨S8x4096x1280, .f32⟩
  | .hbm, ⟨1, _⟩ => ⟨S8x6656, .f32⟩
  | .hbm, ⟨2, _⟩ => ⟨S64x1280, .f32⟩
  | .hbm, ⟨3, _⟩ => ⟨S64, .f32⟩
  | .hbm, ⟨4, _⟩ => ⟨S1280x64, .f32⟩
  | .hbm, ⟨5, _⟩ => ⟨S1280, .f32⟩
  | .hbm, ⟨6, _⟩ => ⟨S8x1280, .f32⟩
  | .hbm, ⟨7, _⟩ => ⟨S8x1x1280, .f32⟩
  | .hbm, ⟨8, _⟩ => ⟨S8x4096x1280, .f32⟩
  | .hbm, ⟨9, _⟩ => ⟨S8x4096x1280, .f32⟩
  | .hbm, ⟨10, _⟩ => ⟨S8x4096x64, .f32⟩
  | .hbm, ⟨11, _⟩ => ⟨S1x1x64, .f32⟩
  | .hbm, ⟨12, _⟩ => ⟨S8x4096x64, .f32⟩
  | .hbm, ⟨13, _⟩ => ⟨S8x4096x64, .f32⟩
  | .hbm, ⟨14, _⟩ => ⟨S8x4096, .f32⟩
  | .hbm, ⟨15, _⟩ => ⟨S8x64x64, .f32⟩
  | .hbm, ⟨16, _⟩ => ⟨S8x4096x64, .f32⟩
  | .hbm, ⟨17, _⟩ => ⟨S8x4096x1280, .f32⟩
  | .hbm, ⟨18, _⟩ => ⟨S1x1x1280, .f32⟩
  | .hbm, ⟨19, _⟩ => ⟨S8x4096x1280, .f32⟩
  | .hbm, ⟨20, _⟩ => ⟨S8x4096x1280, .f32⟩
  | .hbm, ⟨21, _⟩ => ⟨S8x1280, .f32⟩
  | .hbm, ⟨22, _⟩ => ⟨S8x1x1280, .f32⟩
  | .hbm, ⟨23, _⟩ => ⟨S8x4096x1280, .f32⟩
  | .hbm, ⟨24, _⟩ => ⟨S8x4096x1280, .f32⟩
  | _, _ => ⟨S8x4096x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]

class Facts₀ : Prop where
  slices_S8x6656_S8x1280_0_0 : S8x6656.Slices ![0, 0] S8x1280
  bcast_S8x1280_S8x1x1280_0_2 : S8x1280.BroadcastsInDim S8x1x1280 (![0, 2] : Fin 2 → Fin S8x1x1280.rank)
  bcast_S8x1x1280_S8x4096x1280_0_1_2 : S8x1x1280.BroadcastsInDim S8x4096x1280 (![0, 1, 2] : Fin 3 → Fin S8x4096x1280.rank)
  bcast_S64_S1x1x64_2 : S64.BroadcastsInDim S1x1x64 (![2] : Fin 1 → Fin S1x1x64.rank)
  bcast_S1x1x64_S8x4096x64_0_1_2 : S1x1x64.BroadcastsInDim S8x4096x64 (![0, 1, 2] : Fin 3 → Fin S8x4096x64.rank)
  slices_S8x6656_S8x4096_0_1280 : S8x6656.Slices ![0, 1280] S8x4096
  shapeCasts_S8x4096_S8x64x64 : S8x4096.ShapeCasts S8x64x64
  bcast_S1280_S1x1x1280_2 : S1280.BroadcastsInDim S1x1x1280 (![2] : Fin 1 → Fin S1x1x1280.rank)
  bcast_S1x1x1280_S8x4096x1280_0_1_2 : S1x1x1280.BroadcastsInDim S8x4096x1280 (![0, 1, 2] : Fin 3 → Fin S8x4096x1280.rank)
  slices_S8x6656_S8x1280_0_5376 : S8x6656.Slices ![0, 5376] S8x1280
  dot_S8x4096x1280_S64x1280_S8x4096x64_2_1_01_0_n_n_wf : DotDims.WF S8x4096x1280 S64x1280 S8x4096x64 [2] [1] [0, 1] [0] [] []
  dot_S8x4096x64_S8x64x64_S8x4096x64_2_2_1_1_0_0_wf : DotDims.WF S8x4096x64 S8x64x64 S8x4096x64 [2] [2] [1] [1] [0] [0]
  dot_S8x4096x64_S1280x64_S8x4096x1280_2_1_01_0_n_n_wf : DotDims.WF S8x4096x64 S1280x64 S8x4096x1280 [2] [1] [0, 1] [0] [] []

variable [Facts₀]

def dot_S8x4096x1280_S64x1280_S8x4096x64_2_1_01_0_n_n : DotDims S8x4096x1280 S64x1280 S8x4096x64 where
  lhsContracting := [2]
  rhsContracting := [1]
  lhsNonContracting := [0, 1]
  rhsNonContracting := [0]
  lhsBatch := []
  rhsBatch := []
  wf := dot_S8x4096x1280_S64x1280_S8x4096x64_2_1_01_0_n_n_wf
def dot_S8x4096x64_S8x64x64_S8x4096x64_2_2_1_1_0_0 : DotDims S8x4096x64 S8x64x64 S8x4096x64 where
  lhsContracting := [2]
  rhsContracting := [2]
  lhsNonContracting := [1]
  rhsNonContracting := [1]
  lhsBatch := [0]
  rhsBatch := [0]
  wf := dot_S8x4096x64_S8x64x64_S8x4096x64_2_2_1_1_0_0_wf
def dot_S8x4096x64_S1280x64_S8x4096x1280_2_1_01_0_n_n : DotDims S8x4096x64 S1280x64 S8x4096x1280 where
  lhsContracting := [2]
  rhsContracting := [1]
  lhsNonContracting := [0, 1]
  rhsNonContracting := [0]
  lhsBatch := []
  rhsBatch := []
  wf := dot_S8x4096x64_S1280x64_S8x4096x1280_2_1_01_0_n_n_wf

class Facts : Prop extends Facts₀ where

variable [Facts]
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.Payload.lean ====
/-
  The kernel body's arithmetic, read at one entry. From the eight blocks it loads — a [1, 1024, 1280] tile of tokens,
  the sample's input scale [1, 1, 1280], the down weights [64, 1280] and bias [64], the sample's mixing matrix
  [1, 64, 64], the up weights [1280, 64] and bias [1280], and the sample's output scale [1, 1, 1280] — the body forms, at
  row p and channel d of the tile,

      ( Σ_q ( Σ_r ( Σ_k (X[0,p,k] · a[0,0,k]) · Wd[r,k]  +  bd[r] ) · M[0,q,r] ) · Wu[d,q]  +  bu[d] ) · c[0,0,d] .

  Each product with a transposed right operand into a zero accumulator is the plain sum over the contracted axis
  (the transposes only swap the two coordinates of the right operand); the narrowings to the 16-bit format are the
  identity on the extended reals; the unit axes are dropped and the bias and scale rows are repeated down the rows.
-/
import proofs.«130234_j72206990180685_1_alg».proof.Proof.Gen.KernelIdeal.Skeleton
import proofs.«130234_j72206990180685_1_alg».proof.Proof.LibMatmul
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx
open scoped BigOperators

/-- A [1, b] row repeated down `a` rows, the row itself a vector [b] given a leading unit axis: at (p, c) the vector at c. -/
theorem rowOfVec_apply {a b : ℕ} (v : FVec Ideal ⟨1, ![b]⟩ .f32) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ v h) h' (ix2 p c) = v (ix1 c) :=
  (broadcastTo_1b_ab_apply _ h' p c).trans (shapeCast_a_1a_apply v h 0 c)

/-- A [1, 1, b] block's one row repeated down `a` rows: at (p, c) the block at (0, 0, c). -/
theorem rowOfBlock_apply {a b : ℕ} (v : FVec Ideal ⟨3, ![1, 1, b]⟩ .f32) (h : (⟨3, ![1, 1, b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ v h) h' (ix2 p c) = v (ix3 (0 : Fin 1) (0 : Fin 1) c) :=
  (broadcastTo_1b_ab_apply _ h' p c).trans (shapeCast_1ab_ab_apply v h 0 c)

/-- A product with the transposed right operand, both narrowed, into the zero accumulator: at (p, q) the sum over the
    shared axis of lhs (p, j) · rhs (q, j). -/
theorem matmulT_apply {a k b : ℕ} (d : DotDims ⟨2, ![a, k]⟩ ⟨2, ![k, b]⟩ ⟨2, ![a, b]⟩)
    (hl : d.lhsContracting = [1]) (hr : d.rhsContracting = [0]) (hln : d.lhsNonContracting = [0])
    (hrn : d.rhsNonContracting = [1]) (hlb : d.lhsBatch = []) (hrb : d.rhsBatch = [])
    (lhs : FVec Ideal ⟨2, ![a, k]⟩ .f32) (rhs : FVec Ideal ⟨2, ![b, k]⟩ .f32)
    (ht : (⟨2, ![b, k]⟩ : Shape).Transposes [1, 0] ⟨2, ![k, b]⟩) (hb : FTy.bf16.bits < FTy.f32.bits) (p : Fin a) (q : Fin b) :
    matmul d none (truncf .bf16 lhs hb) (transpose ⟨2, ![k, b]⟩ [1, 0] (truncf .bf16 rhs hb) ht) (constant ⟨2, ![a, b]⟩ .f32 0x00000000#32) (ix2 p q)
      = ∑ j : Fin k, lhs (ix2 p j) * rhs (ix2 q j) := by
  refine (matmul_zero_ix2 d hl hr hln hrn hlb hrb none _ _ p q).trans ?_
  refine Finset.sum_congr rfl fun j _ => ?_
  rw [transpose_ix2_apply]
  rfl

variable (P0 : Vec Ideal S1x1024x1280 .f32) (P1 : Vec Ideal S1x1x1280 .f32) (P2 : Vec Ideal S64x1280 .f32) (P3 : Vec Ideal S64 .f32)
  (P4 : Vec Ideal S1x64x64 .f32) (P5 : Vec Ideal S1280x64 .f32) (P6 : Vec Ideal S1280 .f32) (P7 : Vec Ideal S1x1x1280 .f32)

/-- THE BODY'S RESULT at row `p`, channel `d` of the tile. -/
theorem pay_apply (p : Fin 1024) (d : Fin 1280) :
    k0_pay2 (F := Ideal) P0 P1 P2 P3 P4 P5 P6 P7 (ix2 p d)
      = ((∑ q : Fin 64, (∑ r : Fin 64, ((∑ k : Fin 1280, (P0 (ix3 (0 : Fin 1) p k) * P1 (ix3 (0 : Fin 1) (0 : Fin 1) k)) * P2 (ix2 r k)) + P3 (ix1 r))
            * P4 (ix3 (0 : Fin 1) q r)) * P5 (ix2 d q)) + P6 (ix1 d)) * P7 (ix3 (0 : Fin 1) (0 : Fin 1) d) := by
  unfold k0_pay2
  dsimp only
  rw [mulf_apply, addf_apply]
  rw [rowOfBlock_apply, rowOfVec_apply]
  congr 2
  refine (matmulT_apply _ rfl rfl rfl rfl rfl rfl _ _ _ _ p d).trans ?_
  refine Finset.sum_congr rfl fun q _ => ?_
  congr 1
  refine (matmulT_apply _ rfl rfl rfl rfl rfl rfl _ _ _ _ p q).trans ?_
  refine Finset.sum_congr rfl fun r _ => ?_
  rw [addf_apply, rowOfVec_apply, shapeCast_1ab_ab_apply]
  congr 2
  refine (matmulT_apply _ rfl rfl rfl rfl rfl rfl _ _ _ _ p r).trans ?_
  refine Finset.sum_congr rfl fun k _ => ?_
  rw [mulf_apply, shapeCast_1ab_ab_apply, rowOfBlock_apply]

end Cert.KernelIdeal.Body

end
-- ==== Proof.LibMiddleUnit.lean ====
/-
  A unit axis inserted in the middle of a matrix shape, read at coordinates: an [a, b] array cast to [a, 1, b]
  (a per-row family of vectors laid out as one-row matrices, as a bias table b[k, :] reshaped to [k, 1, :]) reads,
  at (k, u, q), the operand at (k, q) — both sit at row-major position k · b + q.
-/
import Idealize.ShloMosaic.Lib.ValueIdx
import Idealize.ShloMosaic.Lib.Pipeline.Value

namespace Idealize.ShloMosaic.ValueIdx

variable {α : Type}

/-- An [a, b] array cast to [a, 1, b] reads, at (k, u, q), the operand at (k, q). -/
theorem shapeCast_ab_a1b_apply {a b : ℕ} (x : (⟨2, ![a, b]⟩ : Shape).Idx → α)
    (h : (⟨2, ![a, b]⟩ : Shape).ShapeCasts ⟨3, ![a, 1, b]⟩) (k : Fin a) (u : Fin 1) (q : Fin b) :
    shapeCast ⟨3, ![a, 1, b]⟩ x h (ix3 k u q) = x (ix2 k q) :=
  shapeCast_apply x h _ _ (by
    have hu : u.val = 0 := by omega
    rw [Shape.rowMajor_val_two, Shape.rowMajor_val_three]
    show k.val * b + q.val = (k.val * 1 + u.val) * b + q.val
    rw [hu, Nat.mul_one, Nat.add_zero])

/-- An [a, 1, b] array cast back to [a, b] reads, at (k, q), the operand at (k, 0, q). -/
theorem shapeCast_a1b_ab_apply {a b : ℕ} (x : (⟨3, ![a, 1, b]⟩ : Shape).Idx → α)
    (h : (⟨3, ![a, 1, b]⟩ : Shape).ShapeCasts ⟨2, ![a, b]⟩) (k : Fin a) (q : Fin b) :
    shapeCast ⟨2, ![a, b]⟩ x h (ix2 k q) = x (ix3 k (0 : Fin 1) q) :=
  shapeCast_apply x h _ _ (by
    rw [Shape.rowMajor_val_three, Shape.rowMajor_val_two]
    show (k.val * 1 + 0) * b + q.val = k.val * b + q.val
    rw [Nat.mul_one, Nat.add_zero])

end Idealize.ShloMosaic.ValueIdx
-- ==== Proof.LibGroupLayout.lean ====
/-
  Group-wise layouts read at coordinates. A matrix whose row of length `n = g · l` is cut into `g` groups of `l`
  consecutive entries is the same data as a rank-3 array `[a, g, l]`: column `k` of row `r` is entry `(r, u, v)`
  exactly when `k = u · l + v` (row-major order keeps the position). A per-group quantity `[a, g]` is spread over
  its group by adding a last axis of extent one and repeating along it: entry `(r, u, v)` of the result is the
  group's value `(r, u)`, whatever `v`. All four readings hold for every element type and every extents.
-/
import Idealize.ShloMosaic.Lib.Pipeline.Value
import Idealize.ShloMosaic.Lib.ValueIdx

namespace Idealize.ShloMosaic.GroupLayout

open Idealize.ShloMosaic Idealize.ShloMosaic.ValueIdx

variable {α : Type}

/-- A matrix `[a, n]` viewed as `[a, g, l]`: entry `(r, u, v)` is the matrix at `(r, k)` for the column
    `k = u · l + v`. -/
theorem shapeCast_split_apply {a g l n : ℕ} (x : (⟨2, ![a, n]⟩ : Shape).Idx → α)
    (h : (⟨2, ![a, n]⟩ : Shape).ShapeCasts ⟨3, ![a, g, l]⟩) (hn : n = g * l)
    (r : Fin a) (u : Fin g) (v : Fin l) (k : Fin n) (hk : k.val = u.val * l + v.val) :
    shapeCast ⟨3, ![a, g, l]⟩ x h (ix3 r u v) = x (ix2 r k) := by
  refine shapeCast_apply x h (ix3 r u v) (ix2 r k) ?_
  rw [Shape.rowMajor_val_two, Shape.rowMajor_val_three]
  show r.val * n + k.val = (r.val * g + u.val) * l + v.val
  rw [hk, hn]; ring

/-- The grouped array `[a, g, l]` viewed as the matrix `[a, n]`: entry `(r, k)` is the array at `(r, u, v)` for the
    group `u` and the place `v` in it with `k = u · l + v` (so `u = k / l`, `v = k % l`). -/
theorem shapeCast_merge_apply {a g l n : ℕ} (y : (⟨3, ![a, g, l]⟩ : Shape).Idx → α)
    (h : (⟨3, ![a, g, l]⟩ : Shape).ShapeCasts ⟨2, ![a, n]⟩) (hn : n = g * l)
    (r : Fin a) (k : Fin n) (u : Fin g) (v : Fin l) (hk : k.val = u.val * l + v.val) :
    shapeCast ⟨2, ![a, n]⟩ y h (ix2 r k) = y (ix3 r u v) := by
  refine shapeCast_apply y h (ix2 r k) (ix3 r u v) ?_
  rw [Shape.rowMajor_val_two, Shape.rowMajor_val_three]
  show (r.val * g + u.val) * l + v.val = r.val * n + k.val
  rw [hk, hn]; ring

/-- A per-group matrix `[a, g]` given a last axis of extent one: entry `(r, u, 0)` is the matrix at `(r, u)`. -/
theorem shapeCast_unitLast_apply {a g : ℕ} (x : (⟨2, ![a, g]⟩ : Shape).Idx → α)
    (h : (⟨2, ![a, g]⟩ : Shape).ShapeCasts ⟨3, ![a, g, 1]⟩) (r : Fin a) (u : Fin g) (z : Fin 1) :
    shapeCast ⟨3, ![a, g, 1]⟩ x h (ix3 r u z) = x (ix2 r u) := by
  refine shapeCast_apply x h (ix3 r u z) (ix2 r u) ?_
  rw [Shape.rowMajor_val_two, Shape.rowMajor_val_three]
  show r.val * g + u.val = (r.val * g + u.val) * 1 + z.val
  have hz : z.val = 0 := by have := z.isLt; omega
  rw [hz, Nat.mul_one, Nat.add_zero]

/-- `[a, g, 1]` repeated along its last axis to `[a, g, l]`: entry `(r, u, v)` is the operand's `(r, u, 0)`. -/
theorem broadcastTo_lastUnit_apply {a g l : ℕ} (y : (⟨3, ![a, g, 1]⟩ : Shape).Idx → α)
    (h : (⟨3, ![a, g, 1]⟩ : Shape).Broadcasts ⟨3, ![a, g, l]⟩) (r : Fin a) (u : Fin g) (v : Fin l) :
    broadcastTo ⟨3, ![a, g, l]⟩ y h (ix3 r u v) = y (ix3 r u (0 : Fin 1)) := by
  refine broadcastTo_apply y h (ix3 r u v) (ix3 r u (0 : Fin 1)) fun ax => ?_
  match ax with
  | ⟨0, _⟩ =>
    show r.val = if a = 1 then 0 else r.val
    split
    · have := r.isLt; omega
    · rfl
  | ⟨1, _⟩ =>
    show u.val = if g = 1 then 0 else u.val
    split
    · have := u.isLt; omega
    · rfl
  | ⟨2, _⟩ =>
    show (0 : ℕ) = if (1 : ℕ) = 1 then 0 else v.val
    rw [if_pos rfl]

/-- A per-group matrix spread over its groups: `[a, g]` → `[a, g, 1]` → `[a, g, l]` at `(r, u, v)` is the matrix at
    `(r, u)`. -/
theorem spread_apply {a g l : ℕ} (x : (⟨2, ![a, g]⟩ : Shape).Idx → α)
    (h : (⟨2, ![a, g]⟩ : Shape).ShapeCasts ⟨3, ![a, g, 1]⟩)
    (h' : (⟨3, ![a, g, 1]⟩ : Shape).Broadcasts ⟨3, ![a, g, l]⟩) (r : Fin a) (u : Fin g) (v : Fin l) :
    broadcastTo ⟨3, ![a, g, l]⟩ (shapeCast ⟨3, ![a, g, 1]⟩ x h) h' (ix3 r u v) = x (ix2 r u) :=
  (broadcastTo_lastUnit_apply _ h' r u v).trans (shapeCast_unitLast_apply x h r u 0)

end Idealize.ShloMosaic.GroupLayout
-- ==== Proof.Spec.lean ====
/-
  The function both programs compute, entry by entry. A sample `b` carries a row of 6656 modulation weights cut into
  three pieces: columns 0 … 1279 scale the 1280 input channels, columns 1280 … 5375 are a 64 × 64 matrix in row-major
  order (entry (q, r) at column 1280 + 64 q + r), and columns 5376 … 6655 scale the 1280 output channels. For a token
  (b, s) and an output channel d the result is

      ( Σ_q ( Σ_r ( Σ_k (x[b,s,k] · e[b,k]) · wd[r,k]  +  bd[r] ) · e[b, 1280 + 64 q + r] ) · wu[d,q]  +  bu[d] ) · e[b, 5376 + d]

  on the extended reals: the scaled input projected down to 64 channels with a bias, mixed by the sample's own
  matrix, projected up to 1280 channels with a bias, and scaled. The sums, products and their grouping are written
  here exactly as both programs perform them, so no law of arithmetic is needed to compare the two.
-/
import Idealize.ShloMosaic.PureOps.Ideal
import Idealize.ShloMosaic.Lib.ValueIdx

noncomputable section

namespace Cert.LoRA

open Idealize.ShloMosaic Idealize.ShloMosaic.ValueIdx
open scoped BigOperators

/-- The column of a sample's weight row that scales input channel `k`. -/
abbrev colDown (k : Fin 1280) : Fin 6656 := ⟨k.val, by have := k.isLt; omega⟩

/-- The column that holds entry `(q, r)` of the sample's 64 × 64 mixing matrix. -/
abbrev colMid (q r : Fin 64) : Fin 6656 := ⟨1280 + (q.val * 64 + r.val), by have := q.isLt; have := r.isLt; omega⟩

/-- The column that scales output channel `d`. -/
abbrev colUp (d : Fin 1280) : Fin 6656 := ⟨5376 + d.val, by have := d.isLt; omega⟩

/-- The down projection of token `(b, s)` at rank channel `r`, bias included. -/
def down (x : FVec Ideal ⟨3, ![8, 4096, 1280]⟩ .f32) (e : FVec Ideal ⟨2, ![8, 6656]⟩ .f32)
    (wd : FVec Ideal ⟨2, ![64, 1280]⟩ .f32) (bd : FVec Ideal ⟨1, ![64]⟩ .f32) (b : Fin 8) (s : Fin 4096) (r : Fin 64) : EReal :=
  (∑ k : Fin 1280, (x (ix3 b s k) * e (ix2 b (colDown k))) * wd (ix2 r k)) + bd (ix1 r)

/-- The down projection mixed by the sample's matrix, at rank channel `q`. -/
def mid (x : FVec Ideal ⟨3, ![8, 4096, 1280]⟩ .f32) (e : FVec Ideal ⟨2, ![8, 6656]⟩ .f32)
    (wd : FVec Ideal ⟨2, ![64, 1280]⟩ .f32) (bd : FVec Ideal ⟨1, ![64]⟩ .f32) (b : Fin 8) (s : Fin 4096) (q : Fin 64) : EReal :=
  ∑ r : Fin 64, down x e wd bd b s r * e (ix2 b (colMid q r))

/-- The result at token `(b, s)`, output channel `d`. -/
def lora (x : FVec Ideal ⟨3, ![8, 4096, 1280]⟩ .f32) (e : FVec Ideal ⟨2, ![8, 6656]⟩ .f32)
    (wd : FVec Ideal ⟨2, ![64, 1280]⟩ .f32) (bd : FVec Ideal ⟨1, ![64]⟩ .f32)
    (wu : FVec Ideal ⟨2, ![1280, 64]⟩ .f32) (bu : FVec Ideal ⟨1, ![1280]⟩ .f32) (b : Fin 8) (s : Fin 4096) (d : Fin 1280) : EReal :=
  ((∑ q : Fin 64, mid x e wd bd b s q * wu (ix2 d q)) + bu (ix1 d)) * e (ix2 b (colUp d))

/-- The result array. -/
def loraArr (x : FVec Ideal ⟨3, ![8, 4096, 1280]⟩ .f32) (e : FVec Ideal ⟨2, ![8, 6656]⟩ .f32)
    (wd : FVec Ideal ⟨2, ![64, 1280]⟩ .f32) (bd : FVec Ideal ⟨1, ![64]⟩ .f32)
    (wu : FVec Ideal ⟨2, ![1280, 64]⟩ .f32) (bu : FVec Ideal ⟨1, ![1280]⟩ .f32) : FVec Ideal ⟨3, ![8, 4096, 1280]⟩ .f32 :=
  fun i => lora x e wd bd wu bu (i 0) (i 1) (i 2)

theorem loraArr_ix3 (x : FVec Ideal ⟨3, ![8, 4096, 1280]⟩ .f32) (e : FVec Ideal ⟨2, ![8, 6656]⟩ .f32)
    (wd : FVec Ideal ⟨2, ![64, 1280]⟩ .f32) (bd : FVec Ideal ⟨1, ![64]⟩ .f32)
    (wu : FVec Ideal ⟨2, ![1280, 64]⟩ .f32) (bu : FVec Ideal ⟨1, ![1280]⟩ .f32) (b : Fin 8) (s : Fin 4096) (d : Fin 1280) :
    loraArr x e wd bd wu bu (ix3 b s d) = lora x e wd bd wu bu b s d := rfl

end Cert.LoRA

end
-- ==== Proof.HostPrefix.lean ====
/-
  What the kernel's program does before it launches the kernel: it cuts each sample's row of 6656 weights into its
  three pieces and gives each piece the rank-3 layout the kernel's windows take — the input scale [8, 1280] as
  [8, 1, 1280], the middle 4096 columns as the matrices [8, 64, 64] in row-major order, the output scale as
  [8, 1, 1280]. Read at an index, each of the three arrays is a column of the sample's row: the same columns the
  specification names.
-/
import proofs.«130234_j72206990180685_1_alg».proof.Proof.Gen.KernelIdeal.Frame
import proofs.«130234_j72206990180685_1_alg».proof.Proof.LibMiddleUnit
import proofs.«130234_j72206990180685_1_alg».proof.Proof.LibGroupLayout
import proofs.«130234_j72206990180685_1_alg».proof.Proof.Spec
import Idealize.ShloMosaic.Lib.ValueLayout
import Idealize.ShloMosaic.Lib.StableHlo.Run

noncomputable section

namespace Cert.KernelIdeal.Prefix

open Cert.KernelIdeal Cert.KernelIdeal.Gen Cert.LoRA Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The input-scale array the kernel's second window reads: the first 1280 columns, with a unit axis in the middle. -/
theorem V_scaleIn (c : Dev nD) : (V m c main_v1 : S8x1x1280.Idx → EReal)
    = shapeCast S8x1x1280 (extractStridedSlice S8x1280 ![0, 0] (m ((c : Thread nD τ).loc main_arg1)) slices_S8x6656_S8x1280_0_0) shapeCasts_S8x1280_S8x1x1280 := by
  dsimp only [Gen.V, Gen.hostOps0]; after_results; rfl

/-- The mixing matrices the third window reads: columns 1280 … 5375, each row as a 64 × 64 matrix. -/
theorem V_mix (c : Dev nD) : (V m c main_v3 : S8x64x64.Idx → EReal)
    = shapeCast S8x64x64 (extractStridedSlice S8x4096 ![0, 1280] (m ((c : Thread nD τ).loc main_arg1)) slices_S8x6656_S8x4096_0_1280) shapeCasts_S8x4096_S8x64x64 := by
  dsimp only [Gen.V, Gen.hostOps0]; after_results; rfl

/-- The output-scale array the fourth window reads: the last 1280 columns, with a unit axis in the middle. -/
theorem V_scaleOut (c : Dev nD) : (V m c main_v5 : S8x1x1280.Idx → EReal)
    = shapeCast S8x1x1280 (extractStridedSlice S8x1280 ![0, 5376] (m ((c : Thread nD τ).loc main_arg1)) slices_S8x6656_S8x1280_0_5376) shapeCasts_S8x1280_S8x1x1280 := by
  dsimp only [Gen.V, Gen.hostOps0]; after_results; rfl

/-- Entry (b, ·, k) of the input-scale array is column k of sample b's weight row. -/
theorem scaleIn_at (c : Dev nD) (b : Fin 8) (u : Fin 1) (k : Fin 1280) :
    (V m c main_v1 : S8x1x1280.Idx → EReal) (ix3 b u k) = (m ((c : Thread nD τ).loc main_arg1) : S8x6656.Idx → EReal) (ix2 b (colDown k)) := by
  rw [V_scaleIn]
  refine (shapeCast_ab_a1b_apply _ _ b u k).trans ?_
  exact slice2_axis1_apply 0 _ _ b k (colDown k) (Nat.zero_add _).symm

/-- Entry (b, q, r) of the mixing matrices is column 1280 + 64 q + r of sample b's weight row. -/
theorem mix_at (c : Dev nD) (b : Fin 8) (q r : Fin 64) :
    (V m c main_v3 : S8x64x64.Idx → EReal) (ix3 b q r) = (m ((c : Thread nD τ).loc main_arg1) : S8x6656.Idx → EReal) (ix2 b (colMid q r)) := by
  rw [V_mix]
  have hq : q.val < 64 := q.isLt
  have hr : r.val < 64 := r.isLt
  refine (GroupLayout.shapeCast_split_apply _ _ (by norm_num : (4096 : ℕ) = 64 * 64) b q r ⟨q.val * 64 + r.val, by omega⟩ rfl).trans ?_
  exact slice2_axis1_apply 1280 _ _ b _ (colMid q r) rfl

/-- Entry (b, ·, d) of the output-scale array is column 5376 + d of sample b's weight row. -/
theorem scaleOut_at (c : Dev nD) (b : Fin 8) (u : Fin 1) (d : Fin 1280) :
    (V m c main_v5 : S8x1x1280.Idx → EReal) (ix3 b u d) = (m ((c : Thread nD τ).loc main_arg1) : S8x6656.Idx → EReal) (ix2 b (colUp d)) := by
  rw [V_scaleOut]
  refine (shapeCast_ab_a1b_apply _ _ b u d).trans ?_
  exact slice2_axis1_apply 5376 _ _ b d (colUp d) rfl

end Cert.KernelIdeal.Prefix

end
-- ==== Proof.Blocks.lean ====
/-
  From the 32 tiles to the whole result array. The grid runs over (sample b, token tile j): the point's tile of the
  tokens and of the result is rows 1024 j … 1024 j + 1023 of sample b, the three per-sample windows show sample b's
  input scale, mixing matrix and output scale, and the four weight windows show the whole weight arrays. So what a
  point writes back is the specification's array read through the point's tile; the 32 tiles cover the array (row s
  of sample b lies in tile (b, s / 1024)); hence the result array ends holding the specification's array.
-/
import proofs.«130234_j72206990180685_1_alg».proof.Proof.Gen.KernelIdeal.Value
import proofs.«130234_j72206990180685_1_alg».proof.Proof.Payload
import proofs.«130234_j72206990180685_1_alg».proof.Proof.HostPrefix
import proofs.«130234_j72206990180685_1_alg».proof.Proof.Spec

noncomputable section

namespace Cert.KernelIdeal.Whole

open Cert.KernelIdeal Cert.KernelIdeal.Gen Cert.KernelIdeal.Value Cert.LoRA
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The windows' block indices at a grid point, decided over the 32 points: the token tile moves with the result's
    tile, the per-sample windows follow the result's sample and stay at block 0 on their other axes, the weight
    windows stay at block 0, and the result's tile index is (sample ≤ 7, token tile ≤ 3, 0). -/
theorem idx_facts : ∀ t : Fin cfg0.N,
    (win0_0.index t (0 : Fin 3) = win0_8.index t (0 : Fin 3) ∧ win0_0.index t (1 : Fin 3) = win0_8.index t (1 : Fin 3) ∧ win0_0.index t (2 : Fin 3) = 0)
    ∧ (win0_1.index t (0 : Fin 3) = win0_8.index t (0 : Fin 3) ∧ win0_1.index t (1 : Fin 3) = 0 ∧ win0_1.index t (2 : Fin 3) = 0)
    ∧ (win0_2.index t (0 : Fin 3) = win0_8.index t (0 : Fin 3) ∧ win0_2.index t (1 : Fin 3) = 0 ∧ win0_2.index t (2 : Fin 3) = 0)
    ∧ (win0_3.index t (0 : Fin 3) = win0_8.index t (0 : Fin 3) ∧ win0_3.index t (1 : Fin 3) = 0 ∧ win0_3.index t (2 : Fin 3) = 0)
    ∧ (win0_4.index t (0 : Fin 2) = 0 ∧ win0_4.index t (1 : Fin 2) = 0)
    ∧ win0_5.index t (0 : Fin 1) = 0
    ∧ (win0_6.index t (0 : Fin 2) = 0 ∧ win0_6.index t (1 : Fin 2) = 0)
    ∧ win0_7.index t (0 : Fin 1) = 0
    ∧ (win0_8.index t (0 : Fin 3) ≤ 7 ∧ win0_8.index t (1 : Fin 3) ≤ 3 ∧ win0_8.index t (2 : Fin 3) = 0) :=
  (by decide +kernel : ∀ t : Fin grid0.N, _)

/-- Every (sample, token tile) pair is some point's. -/
theorem idx_onto : ∀ (q0 : Fin 8) (q1 : Fin 4), ∃ t : Fin cfg0.N, win0_8.index t = ![q0.val, q1.val, 0] :=
  (by decide +kernel : ∀ (q0 : Fin 8) (q1 : Fin 4), ∃ t : Fin grid0.N, win0_8.index t = ![q0.val, q1.val, 0])

/-! ## Each window's block at a point, read at an entry -/

/-- The token tile: row p of the tile is token 1024 j + p of the point's sample. -/
theorem tile_read (c : Dev nD) (t : Fin cfg0.N) (u : Fin 1) (p : Fin 1024) (k : Fin 1280) (b : Fin 8) (s : Fin 4096)
    (hb : b.val = win0_8.index t (0 : Fin 3)) (hs : s.val = win0_8.index t (1 : Fin 3) * 1024 + p.val) :
    (iblk m c 0 t : S1x1024x1280.Idx → EReal) (ix3 u p k) = (m ((c : Thread nD τ).loc main_arg0) : S8x4096x1280.Idx → EReal) (ix3 b s k) := by
  obtain ⟨⟨e0, e1, e2⟩, -⟩ := idx_facts t
  have hu : u.val = 0 := by have := u.isLt; omega
  show V m c main_arg0 (((cfg0.win 0).blk t).view.emb (ix3 u p k)) = _
  rw [V_main_arg0]
  refine congrArg _ (funext fun a => Fin.ext ?_)
  match a with
  | ⟨0, _⟩ => show win0_0.index t (0 : Fin 3) * 1 + 1 * u.val = b.val; omega
  | ⟨1, _⟩ => show win0_0.index t (1 : Fin 3) * 1024 + 1 * p.val = s.val; omega
  | ⟨2, _⟩ => show win0_0.index t (2 : Fin 3) * 1280 + 1 * k.val = k.val; omega

/-- The input-scale window shows the point's sample's first 1280 weights. -/
theorem scaleIn_read (c : Dev nD) (t : Fin cfg0.N) (u v : Fin 1) (k : Fin 1280) (b : Fin 8) (hb : b.val = win0_8.index t (0 : Fin 3)) :
    (iblk m c 1 t : S1x1x1280.Idx → EReal) (ix3 u v k) = (m ((c : Thread nD τ).loc main_arg1) : S8x6656.Idx → EReal) (ix2 b (colDown k)) := by
  obtain ⟨-, ⟨e0, e1, e2⟩, -⟩ := idx_facts t
  have hu : u.val = 0 := by have := u.isLt; omega
  have hv : v.val = 0 := by have := v.isLt; omega
  rw [← Prefix.scaleIn_at m c b 0 k]
  show V m c main_v1 (((cfg0.win 1).blk t).view.emb (ix3 u v k)) = V m c main_v1 (ix3 b (0 : Fin 1) k)
  refine congrArg _ (funext fun a => Fin.ext ?_)
  match a with
  | ⟨0, _⟩ => show win0_1.index t (0 : Fin 3) * 1 + 1 * u.val = b.val; omega
  | ⟨1, _⟩ => show win0_1.index t (1 : Fin 3) * 1 + 1 * v.val = 0; omega
  | ⟨2, _⟩ => show win0_1.index t (2 : Fin 3) * 1280 + 1 * k.val = k.val; omega

/-- The mixing-matrix window shows the point's sample's 64 × 64 matrix. -/
theorem mix_read (c : Dev nD) (t : Fin cfg0.N) (u : Fin 1) (q r : Fin 64) (b : Fin 8) (hb : b.val = win0_8.index t (0 : Fin 3)) :
    (iblk m c 2 t : S1x64x64.Idx → EReal) (ix3 u q r) = (m ((c : Thread nD τ).loc main_arg1) : S8x6656.Idx → EReal) (ix2 b (colMid q r)) := by
  obtain ⟨-, -, ⟨e0, e1, e2⟩, -⟩ := idx_facts t
  have hu : u.val = 0 := by have := u.isLt; omega
  rw [← Prefix.mix_at m c b q r]
  show V m c main_v3 (((cfg0.win 2).blk t).view.emb (ix3 u q r)) = V m c main_v3 (ix3 b q r)
  refine congrArg _ (funext fun a => Fin.ext ?_)
  match a with
  | ⟨0, _⟩ => show win0_2.index t (0 : Fin 3) * 1 + 1 * u.val = b.val; omega
  | ⟨1, _⟩ => show win0_2.index t (1 : Fin 3) * 64 + 1 * q.val = q.val; omega
  | ⟨2, _⟩ => show win0_2.index t (2 : Fin 3) * 64 + 1 * r.val = r.val; omega

/-- The output-scale window shows the point's sample's last 1280 weights. -/
theorem scaleOut_read (c : Dev nD) (t : Fin cfg0.N) (u v : Fin 1) (d : Fin 1280) (b : Fin 8) (hb : b.val = win0_8.index t (0 : Fin 3)) :
    (iblk m c 3 t : S1x1x1280.Idx → EReal) (ix3 u v d) = (m ((c : Thread nD τ).loc main_arg1) : S8x6656.Idx → EReal) (ix2 b (colUp d)) := by
  obtain ⟨-, -, -, ⟨e0, e1, e2⟩, -⟩ := idx_facts t
  have hu : u.val = 0 := by have := u.isLt; omega
  have hv : v.val = 0 := by have := v.isLt; omega
  rw [← Prefix.scaleOut_at m c b 0 d]
  show V m c main_v5 (((cfg0.win 3).blk t).view.emb (ix3 u v d)) = V m c main_v5 (ix3 b (0 : Fin 1) d)
  refine congrArg _ (funext fun a => Fin.ext ?_)
  match a with
  | ⟨0, _⟩ => show win0_3.index t (0 : Fin 3) * 1 + 1 * u.val = b.val; omega
  | ⟨1, _⟩ => show win0_3.index t (1 : Fin 3) * 1 + 1 * v.val = 0; omega
  | ⟨2, _⟩ => show win0_3.index t (2 : Fin 3) * 1280 + 1 * d.val = d.val; omega

/-- The four weight windows show their whole arrays at every point. -/
theorem wd_read (c : Dev nD) (t : Fin cfg0.N) : (iblk m c 4 t : S64x1280.Idx → EReal) = m ((c : Thread nD τ).loc main_arg2) := by
  obtain ⟨-, -, -, -, ⟨e0, e1⟩, -⟩ := idx_facts t
  funext j
  show V m c main_arg2 (((cfg0.win 4).blk t).view.emb j) = _
  rw [V_main_arg2]
  refine congrArg _ (funext fun a => Fin.ext ?_)
  match a with
  | ⟨0, _⟩ => show win0_4.index t (0 : Fin 2) * 64 + 1 * (j 0).val = (j 0).val; omega
  | ⟨1, _⟩ => show win0_4.index t (1 : Fin 2) * 1280 + 1 * (j 1).val = (j 1).val; omega

theorem bd_read (c : Dev nD) (t : Fin cfg0.N) : (iblk m c 5 t : S64.Idx → EReal) = m ((c : Thread nD τ).loc main_arg3) := by
  obtain ⟨-, -, -, -, -, e0, -⟩ := idx_facts t
  funext j
  show V m c main_arg3 (((cfg0.win 5).blk t).view.emb j) = _
  rw [V_main_arg3]
  refine congrArg _ (funext fun a => Fin.ext ?_)
  match a with
  | ⟨0, _⟩ => show win0_5.index t (0 : Fin 1) * 64 + 1 * (j 0).val = (j 0).val; omega

theorem wu_read (c : Dev nD) (t : Fin cfg0.N) : (iblk m c 6 t : S1280x64.Idx → EReal) = m ((c : Thread nD τ).loc main_arg4) := by
  obtain ⟨-, -, -, -, -, -, ⟨e0, e1⟩, -⟩ := idx_facts t
  funext j
  show V m c main_arg4 (((cfg0.win 6).blk t).view.emb j) = _
  rw [V_main_arg4]
  refine congrArg _ (funext fun a => Fin.ext ?_)
  match a with
  | ⟨0, _⟩ => show win0_6.index t (0 : Fin 2) * 1280 + 1 * (j 0).val = (j 0).val; omega
  | ⟨1, _⟩ => show win0_6.index t (1 : Fin 2) * 64 + 1 * (j 1).val = (j 1).val; omega

theorem bu_read (c : Dev nD) (t : Fin cfg0.N) : (iblk m c 7 t : S1280.Idx → EReal) = m ((c : Thread nD τ).loc main_arg5) := by
  obtain ⟨-, -, -, -, -, -, -, e0, -⟩ := idx_facts t
  funext j
  show V m c main_arg5 (((cfg0.win 7).blk t).view.emb j) = _
  rw [V_main_arg5]
  refine congrArg _ (funext fun a => Fin.ext ?_)
  match a with
  | ⟨0, _⟩ => show win0_7.index t (0 : Fin 1) * 1280 + 1 * (j 0).val = (j 0).val; omega

/-! ## What a point writes back, the cover, the array -/

/-- The result the run ends with, as the specification's array of the launch contents of the six arguments. -/
abbrev result (c : Dev nD) : S8x4096x1280.Idx → EReal :=
  loraArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- WHAT POINT `t` WRITES BACK is the specification's array read through the point's tile. -/
theorem flushed_eq (c : Dev nD) (t : Fin cfg0.N) :
    (dats m 0 c).flushed 8 t = ((cfg0.win 8).blk t).view.read (Elt Ideal) (result m c) := by
  obtain ⟨-, -, -, -, -, -, -, -, ⟨l0, l1, l2⟩⟩ := idx_facts t
  rw [flushed8]
  unfold out0_8
  simp only [View.ld_unit_zero (S := S1x1024x1280) hz3, View.ld_unit_zero (S := S1x1x1280) hz3, View.ld_unit_zero (S := S64x1280) hz2,
    View.ld_unit_zero (S := S64) hz1, View.ld_unit_zero (S := S1x64x64) hz3, View.ld_unit_zero (S := S1280x64) hz2,
    View.ld_unit_zero (S := S1280) hz1]
  rw [wd_read, bd_read, wu_read, bu_read]
  refine funext fun (y : S1x1024x1280.Idx) => ?_
  obtain ⟨u, p, d, rfl⟩ : ∃ (u : Fin 1) (p : Fin 1024) (d : Fin 1280), y = ix3 u p d := ⟨y 0, y 1, y 2, eq_ix3 y⟩
  have hu : u.val = 0 := by have := u.isLt; omega
  have hp : p.val < 1024 := p.isLt
  let b : Fin 8 := ⟨win0_8.index t (0 : Fin 3), by omega⟩
  let s : Fin 4096 := ⟨win0_8.index t (1 : Fin 3) * 1024 + p.val, by omega⟩
  have hi : ((cfg0.win 8).blk t).view.emb (ix3 u p d) = ix3 b s d := by
    funext a; apply Fin.ext
    match a with
    | ⟨0, _⟩ => show win0_8.index t (0 : Fin 3) * 1 + 1 * u.val = win0_8.index t (0 : Fin 3); omega
    | ⟨1, _⟩ => show win0_8.index t (1 : Fin 3) * 1024 + 1 * p.val = win0_8.index t (1 : Fin 3) * 1024 + p.val; omega
    | ⟨2, _⟩ => show win0_8.index t (2 : Fin 3) * 1280 + 1 * d.val = d.val; omega
  have hix : ix8_0 (ix3 u p d) = ix2 p d := funext fun a => match a with | ⟨0, _⟩ => rfl | ⟨1, _⟩ => rfl
  show _ = result m c (((cfg0.win 8).blk t).view.emb (ix3 u p d))
  refine (canon8_eq _ _ _ _ _ _ _ _ (ix3 u p d)).trans ?_
  show k0_pay2 _ _ _ _ _ _ _ _ (ix8_0 (ix3 u p d)) = _
  rw [hix, hi]
  refine (Body.pay_apply _ _ _ _ _ _ _ _ p d).trans ?_
  have h0 : ∀ k : Fin 1280, (iblk m c 0 t : S1x1024x1280.Idx → EReal) (ix3 (0 : Fin 1) p k) = _ := fun k => tile_read m c t 0 p k b s rfl rfl
  have h1 : ∀ k : Fin 1280, (iblk m c 1 t : S1x1x1280.Idx → EReal) (ix3 (0 : Fin 1) (0 : Fin 1) k) = _ := fun k => scaleIn_read m c t 0 0 k b rfl
  have h2 : ∀ q r : Fin 64, (iblk m c 2 t : S1x64x64.Idx → EReal) (ix3 (0 : Fin 1) q r) = _ := fun q r => mix_read m c t 0 q r b rfl
  have h3 : (iblk m c 3 t : S1x1x1280.Idx → EReal) (ix3 (0 : Fin 1) (0 : Fin 1) d) = _ := scaleOut_read m c t 0 0 d b rfl
  simp only [h0, h1, h2, h3]
  rfl

/-- An index of the array is in point `t`'s tile iff each coordinate is in the tile's range on its axis. -/
theorem mem_blk (t : Fin cfg0.N) (i : S8x4096x1280.Idx) :
    i ∈ ((cfg0.win 8).blk t).view.set ↔ ∀ a : Fin 3, win0_8.index t a * S1x1024x1280.size a ≤ (i a).val ∧ (i a).val < win0_8.index t a * S1x1024x1280.size a + S1x1024x1280.size a := by
  show i ∈ ((View.whole main_v6).slice (win0_8.rect t)).set ↔ _
  rw [View.set_slice_whole, Rect.mem_set_unit]
  exact Iff.rfl

/-- The 32 tiles cover the array: token s of sample b lies in the tile of point (b, s / 1024). -/
theorem cover (i : S8x4096x1280.Idx) : ∃ t : Fin cfg0.N, (cfg0.win 8).flush t = true ∧ i ∈ ((cfg0.win 8).blk t).view.set := by
  have hi0 : (i 0).val < 8 := (i 0).isLt
  have hi1 : (i 1).val < 4096 := (i 1).isLt
  have hi2 : (i 2).val < 1280 := (i 2).isLt
  obtain ⟨t, ht⟩ := idx_onto ⟨(i 0).val, hi0⟩ ⟨(i 1).val / 1024, by omega⟩
  have q0 : win0_8.index t (0 : Fin 3) = (i 0).val := congrFun ht 0
  have q1 : win0_8.index t (1 : Fin 3) = (i 1).val / 1024 := congrFun ht 1
  have q2 : win0_8.index t (2 : Fin 3) = 0 := congrFun ht 2
  refine ⟨t, flush0_8 t, ?_⟩
  rw [mem_blk]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 1024 ≤ (i 1).val ∧ (i 1).val < win0_8.index t (1 : Fin 3) * 1024 + 1024; omega
  | ⟨2, _⟩ => show win0_8.index t (2 : Fin 3) * 1280 ≤ (i 2).val ∧ (i 2).val < win0_8.index t (2 : Fin 3) * 1280 + 1280; omega

/-- THE RESULT ARRAY after the run is the specification's array of the arguments. -/
theorem final (c : Dev nD) : (dats m 0 c).arrAt 8 cfg0.N = result m c :=
  (dats m 0 c).arrAt_eq_of_cover 8 (result m c) (fun t _ => flushed_eq m c t) cover

/-- The kernel's run, read: the result array at the specification's array, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Whole

end
-- ==== Proof.RefIsSpec.lean ====
/-
  The reference computes `Cert.LoRA.loraArr`. Each of its operations is read at an index (the generated stage lemmas):
  the three slices of the sample's weight row land on the three column ranges of the specification, the reshape of
  the middle 4096 columns to 64 × 64 keeps row-major order (entry (q, r) is column 64 q + r of the slice), the
  broadcasts repeat a sample's vector along the tokens and a bias along samples and tokens, and the three
  contractions are the three sums of the specification over the rank or the channel axis.
-/
import proofs.«130234_j72206990180685_1_alg».proof.Proof.Gen.ReferenceIdeal.Read
import proofs.«130234_j72206990180685_1_alg».proof.Proof.Spec

noncomputable section

namespace Cert.ReferenceIdeal.RefValue

open Cert.ReferenceIdeal Cert.ReferenceIdeal.Read Cert.LoRA Idealize.ShloMosaic Idealize.ShloMosaic.ValueIdx
open scoped BigOperators

variable (x0 : (⟨S8x4096x1280, .f32⟩ : BufTy).Contents (Elt Ideal)) (x1 : (⟨S8x6656, .f32⟩ : BufTy).Contents (Elt Ideal))
  (x2 : (⟨S64x1280, .f32⟩ : BufTy).Contents (Elt Ideal)) (x3 : (⟨S64, .f32⟩ : BufTy).Contents (Elt Ideal))
  (x4 : (⟨S1280x64, .f32⟩ : BufTy).Contents (Elt Ideal)) (x5 : (⟨S1280, .f32⟩ : BufTy).Contents (Elt Ideal))

/-- The input scale spread over the tokens: at `(b, s, k)` it is column `k` of sample `b`'s weight row. -/
theorem scaleIn_at (b : Fin 8) (s : Fin 4096) (k : Fin 1280) :
    val_main_v2 (F := Ideal) x1 (ix3 b s k) = x1 (ix2 b (colDown k)) := by
  rw [val_main_v2_apply, val_main_v1_apply, val_main_v0_apply]
  exact congrArg x1 (funext fun a => match a with | ⟨0, _⟩ => rfl | ⟨1, _⟩ => rfl)

/-- The output scale spread over the tokens: at `(b, s, d)` it is column `5376 + d` of sample `b`'s weight row. -/
theorem scaleOut_at (b : Fin 8) (s : Fin 4096) (d : Fin 1280) :
    val_main_v17 (F := Ideal) x1 (ix3 b s d) = x1 (ix2 b (colUp d)) := by
  rw [val_main_v17_apply, val_main_v16_apply, val_main_v15_apply]
  exact congrArg x1 (funext fun a => match a with | ⟨0, _⟩ => rfl | ⟨1, _⟩ => rfl)

/-- The sample's mixing matrix: entry `(b, q, r)` is column `1280 + 64 q + r` of sample `b`'s weight row. -/
theorem mix_at (b : Fin 8) (q r : Fin 64) :
    val_main_v9 (F := Ideal) x1 (ix3 b q r) = x1 (ix2 b (colMid q r)) := by
  rw [val_main_v9_apply, val_main_v8_apply]
  refine congrArg x1 (funext fun a => Fin.ext ?_)
  have hb : b.val < 8 := b.isLt
  have hq : q.val < 64 := q.isLt
  have hr : r.val < 64 := r.isLt
  match a with
  | ⟨0, _⟩ => show ((b.val * 64 + q.val) * 64 + r.val) / 4096 = b.val; omega
  | ⟨1, _⟩ => show 1280 + ((b.val * 64 + q.val) * 64 + r.val) % 4096 = 1280 + (q.val * 64 + r.val); omega

/-- The down projection with its bias. -/
theorem down_at (b : Fin 8) (s : Fin 4096) (r : Fin 64) :
    val_main_v7 (F := Ideal) x0 x1 x2 x3 (ix3 b s r) = down x0 x1 x2 x3 b s r := by
  rw [val_main_v7_apply, val_main_v4_apply, val_main_v6_apply, val_main_v5_apply]
  unfold down
  show (∑ k : Fin 1280, _) + _ = _
  congr 1
  · refine Finset.sum_congr rfl fun k _ => ?_
    have el : lidx_main_v4 (ix3 b s r) k = ix3 b s k := funext fun a => match a with | ⟨0, _⟩ => rfl | ⟨1, _⟩ => rfl | ⟨2, _⟩ => rfl
    have er : ridx_main_v4 (ix3 b s r) k = ix2 r k := funext fun a => match a with | ⟨0, _⟩ => rfl | ⟨1, _⟩ => rfl
    rw [el, er, val_main_v3_apply, scaleIn_at]
    rfl
  · exact congrArg x3 (funext fun a => match a with | ⟨0, _⟩ => rfl)

/-- The mixed projection. -/
theorem mid_at (b : Fin 8) (s : Fin 4096) (q : Fin 64) :
    val_main_v10 (F := Ideal) x0 x1 x2 x3 (ix3 b s q) = mid x0 x1 x2 x3 b s q := by
  rw [val_main_v10_apply]
  unfold mid
  refine Finset.sum_congr rfl fun r _ => ?_
  have el : lidx_main_v10 (ix3 b s q) r = ix3 b s r := funext fun a => match a with | ⟨0, _⟩ => rfl | ⟨1, _⟩ => rfl | ⟨2, _⟩ => rfl
  have er : ridx_main_v10 (ix3 b s q) r = ix3 b q r := funext fun a => match a with | ⟨0, _⟩ => rfl | ⟨1, _⟩ => rfl | ⟨2, _⟩ => rfl
  rw [el, er, down_at, mix_at]

/-- THE REFERENCE'S RESULT is the specification's array. -/
theorem result_eq : val_main_v18 (F := Ideal) x0 x1 x2 x3 x4 x5 = loraArr x0 x1 x2 x3 x4 x5 := by
  funext i
  obtain ⟨b, s, d, rfl⟩ : ∃ (b : Fin 8) (s : Fin 4096) (d : Fin 1280), i = ix3 b s d := ⟨i 0, i 1, i 2, eq_ix3 i⟩
  rw [loraArr_ix3, val_main_v18_apply, val_main_v14_apply, val_main_v11_apply, val_main_v13_apply, val_main_v12_apply, scaleOut_at]
  unfold lora
  show ((∑ q : Fin 64, _) + _) * _ = _
  congr 2
  · refine Finset.sum_congr rfl fun q _ => ?_
    have el : lidx_main_v11 (ix3 b s d) q = ix3 b s q := funext fun a => match a with | ⟨0, _⟩ => rfl | ⟨1, _⟩ => rfl | ⟨2, _⟩ => rfl
    have er : ridx_main_v11 (ix3 b s d) q = ix2 d q := funext fun a => match a with | ⟨0, _⟩ => rfl | ⟨1, _⟩ => rfl
    rw [el, er, mid_at]
  · exact congrArg x5 (funext fun a => match a with | ⟨0, _⟩ => rfl)

end Cert.ReferenceIdeal.RefValue

end
-- ==== Proof.lean ====
/-
  A transformer block's low-rank adapter whose three stages are modulated per sample: the input channels are scaled
  by the sample's first 1280 weights, projected down to 64 channels (with a bias), mixed by the sample's own 64 × 64
  matrix, projected up to 1280 channels (with a bias), and scaled by the sample's last 1280 weights. The kernel
  works on tiles of 1024 tokens of one sample and feeds its matrix unit 16-bit operands; the reference is three
  einsums over the whole batch.

  On the extended reals the two are one function (`Cert.LoRA.loraArr`, Proof/Spec.lean): narrowing to the 16-bit
  format is the identity, a matrix product into a zero accumulator is the sum over the contracted axis, a transpose
  swaps two coordinates, and both programs group their sums and products in the same way — so no law of arithmetic
  beyond reading the operations at an index is used, and finiteness of the inputs plays no role.

  * Proof/Payload.lean  — the kernel body's arithmetic at one entry of a tile;
  * Proof/HostPrefix.lean — the three pieces of the sample's weight row as the kernel's windows find them;
  * Proof/Blocks.lean   — each window's block at a grid point, what a point writes back, the 32 tiles cover the array;
  * Proof/RefIsSpec.lean — the reference's operations read at an index are the same sums.
  No operation of the kernel is rewritten on the way to the extended reals: its idealization is its own text read there.
-/
import proofs.«130234_j72206990180685_1_alg».proof.Defs
import proofs.«130234_j72206990180685_1_alg».proof.Proof.Gen.Kernel
import proofs.«130234_j72206990180685_1_alg».proof.Proof.Gen.Kernel.Frame
import proofs.«130234_j72206990180685_1_alg».proof.Proof.Gen.KernelIdeal
import proofs.«130234_j72206990180685_1_alg».proof.Proof.Gen.KernelIdeal.Frame
import proofs.«130234_j72206990180685_1_alg».proof.Proof.Gen.KernelIdeal.Value
import proofs.«130234_j72206990180685_1_alg».proof.Proof.Gen.ReferenceIdeal
import proofs.«130234_j72206990180685_1_alg».proof.Proof.Gen.ReferenceIdeal.Run
import proofs.«130234_j72206990180685_1_alg».proof.Proof.Gen.ReferenceIdeal.Read
import proofs.«130234_j72206990180685_1_alg».proof.Proof.Gen.Pre_finite_inputs
import proofs.«130234_j72206990180685_1_alg».proof.Proof.Blocks
import proofs.«130234_j72206990180685_1_alg».proof.Proof.RefIsSpec
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as they were: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the six arguments both programs end with the specification's array of them. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
